-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x40x64 : Shape := ⟨3, ![2048, 40, 64]⟩
abbrev S3x64x64 : Shape := ⟨3, ![3, 64, 64]⟩
abbrev S40x1 : Shape := ⟨2, ![40, 1]⟩
abbrev S_ : Shape := ⟨0, ![]⟩

class Facts : Prop where
  bcast_S_S2048x40x64 : S_.BroadcastsInDim S2048x40x64 (![] : Fin 0 → Fin S2048x40x64.rank)
  reducesTo_S2048x40x64_S_d0_1_2 : S2048x40x64.ReducesTo [0, 1, 2] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S40x1 : S_.BroadcastsInDim S40x1 (![] : Fin 0 → Fin S40x1.rank)
  reducesTo_S40x1_S_d0_1 : S40x1.ReducesTo [0, 1] S_

variable [Facts]

def fn_part1 {F : FTy → Type} [FloatOps F] (main_v13 : IVec S_ 1) (main_v16 : IVec S40x1 1) : IVec S_ 1 :=
  let main_c_5 : IVec S_ 1 := constantI S_ 1 1#1
  let main_v17 : IVec S_ 1 := (fun x v => Host.reduce IntOp.andi x v reducesTo_S40x1_S_d0_1 h_S_) main_v16 main_c_5
  let main_v18 : IVec S_ 1 := andi main_v13 main_v17
  main_v18

def fn {F : FTy → Type} [FloatOps F] (main_arg0 : FVec F S2048x40x64 .f32) (main_arg1 : FVec F S3x64x64 .f32) (main_arg2 : FVec F S3x64x64 .f32) (main_arg3 : FVec F S40x1 .f32) : IVec S_ 1 :=
  let main_v0 : FVec F S2048x40x64 .f32 := Host.absf main_arg0
  let main_cst : FVec F S_ .f32 := constant S_ .f32 0x7F800000#32
  let main_v1 : FVec F S2048x40x64 .f32 := broadcastInDim S2048x40x64 ![] bcast_S_S2048x40x64 main_cst
  let main_v2 : IVec S2048x40x64 1 := cmpf .olt main_v0 main_v1
  let main_c : IVec S_ 1 := constantI S_ 1 1#1
  let main_v3 : IVec S_ 1 := (fun x v => Host.reduce IntOp.andi x v reducesTo_S2048x40x64_S_d0_1_2 h_S_) main_v2 main_c
  let main_v4 : FVec F S3x64x64 .f32 := Host.absf main_arg1
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S40x1 .f32 := Host.absf main_arg3
  let main_cst_4 : FVec F S_ .f32 := constant S_ .f32 0x7F800000#32
  let main_v15 : FVec F S40x1 .f32 := broadcastInDim S40x1 ![] bcast_S_S40x1 main_cst_4
  let main_v16 : IVec S40x1 1 := cmpf .olt main_v14 main_v15
  fn_part1 (F := F) main_v13 main_v16
-- ==== Kernel.lean ====
abbrev S2048x40x64 : Shape := ⟨3, ![2048, 40, 64]⟩
abbrev S3x64x64 : Shape := ⟨3, ![3, 64, 64]⟩
abbrev S40x1 : Shape := ⟨2, ![40, 1]⟩
abbrev S3x64x128 : Shape := ⟨3, ![3, 64, 128]⟩
abbrev S2048x64 : Shape := ⟨2, ![2048, 64]⟩
abbrev S256x40x64 : Shape := ⟨3, ![256, 40, 64]⟩
abbrev S256x64 : Shape := ⟨2, ![256, 64]⟩
abbrev S1x64x128 : Shape := ⟨3, ![1, 64, 128]⟩
abbrev S64x128 : Shape := ⟨2, ![64, 128]⟩
abbrev S10240x64 : Shape := ⟨2, ![10240, 64]⟩
abbrev S10240x128 : Shape := ⟨2, ![10240, 128]⟩
abbrev S256x40x128 : Shape := ⟨3, ![256, 40, 128]⟩
abbrev S256x64x64 : Shape := ⟨3, ![256, 64, 64]⟩
abbrev S1x40x1 : Shape := ⟨3, ![1, 40, 1]⟩

abbrev nBuf : Space → Nat
  | .hbm => 8
  | .vmem => 6
  | .smem => 0
  | _ => 0

abbrev bufTy : (tb : Table) → Fin (tcTables nBuf tb) → BufTy
  | .hbm, ⟨0, _⟩ => ⟨S2048x40x64, .f32⟩
  | .hbm, ⟨1, _⟩ => ⟨S3x64x64, .f32⟩
  | .hbm, ⟨2, _⟩ => ⟨S3x64x64, .f32⟩
  | .hbm, ⟨3, _⟩ => ⟨S40x1, .f32⟩
  | .hbm, ⟨4, _⟩ => ⟨S3x64x64, .f32⟩
  | .hbm, ⟨5, _⟩ => ⟨S3x64x64, .f32⟩
  | .hbm, ⟨6, _⟩ => ⟨S3x64x128, .f32⟩
  | .hbm, ⟨7, _⟩ => ⟨S2048x64, .f32⟩
  | .local _ .vmem, ⟨0, _⟩ => ⟨S256x40x64, .f32⟩
  | .local _ .vmem, ⟨1, _⟩ => ⟨S256x40x64, .f32⟩
  | .local _ .vmem, ⟨2, _⟩ => ⟨S3x64x128, .f32⟩
  | .local _ .vmem, ⟨3, _⟩ => ⟨S40x1, .f32⟩
  | .local _ .vmem, ⟨4, _⟩ => ⟨S256x64, .f32⟩
  | .local _ .vmem, ⟨5, _⟩ => ⟨S256x64, .f32⟩
  | _, _ => ⟨S2048x40x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x40x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S3x64x64_S3x64x64_0_2_1 : S3x64x64.Transposes [0, 2, 1] S3x64x64
  concatenates_S3x64x64_S3x64x64_S3x64x128_d2 : Shape.Concatenates [S3x64x64, S3x64x64] S3x64x128 2
  inb_S256x40x64_S256x40x64_0_0_0 : ∀ a, (![0, 0, 0] : Fin 3 → Nat) a + S256x40x64.size a ≤ S256x40x64.size a
  h_S256x40x64 : 0 < S256x40x64.numel
  inb_S3x64x128_S1x64x128_0_0_0 : ∀ a, (![0, 0, 0] : Fin 3 → Nat) a + S1x64x128.size a ≤ S3x64x128.size a
  h_S1x64x128 : 0 < S1x64x128.numel
  shapeCasts_S1x64x128_S64x128 : S1x64x128.ShapeCasts S64x128
  shapeCasts_S256x40x64_S10240x64 : S256x40x64.ShapeCasts S10240x64
  shapeCasts_S10240x128_S256x40x128 : S10240x128.ShapeCasts S256x40x128
  slices_S256x40x128_o0_0_0_S256x40x64 : S256x40x128.Slices ![0, 0, 0] S256x40x64
  slices_S256x40x128_o0_0_64_S256x40x64 : S256x40x128.Slices ![0, 0, 64] S256x40x64
  inb_S3x64x128_S1x64x128_1_0_0 : ∀ a, (![1, 0, 0] : Fin 3 → Nat) a + S1x64x128.size a ≤ S3x64x128.size a
  inb_S3x64x128_S1x64x128_2_0_0 : ∀ a, (![2, 0, 0] : Fin 3 → Nat) a + S1x64x128.size a ≤ S3x64x128.size a
  inb_S40x1_S40x1_0_0 : ∀ a, (![0, 0] : Fin 2 → Nat) a + S40x1.size a ≤ S40x1.size a
  h_S40x1 : 0 < S40x1.numel
  shapeCasts_S40x1_S1x40x1 : S40x1.ShapeCasts S1x40x1
  broadcasts_S1x40x1_S256x40x64 : S1x40x1.Broadcasts S256x40x64
  reduces_S256x40x64_S256x64 : S256x40x64.Reduces [1] S256x64
  inb_S256x64_S256x64_0_0 : ∀ a, (![0, 0] : Fin 2 → Nat) a + S256x64.size a ≤ S256x64.size a
  h_S256x64 : 0 < S256x64.numel
  dot_S10240x64_S64x128_S10240x128_1_0_0_1_n_n_wf : DotDims.WF S10240x64 S64x128 S10240x128 [1] [0] [0] [1] [] []
  dot_S256x40x64_S256x40x64_S256x64x64_1_1_2_2_0_0_wf : DotDims.WF S256x40x64 S256x40x64 S256x64x64 [1] [1] [2] [2] [0] [0]
  dot_S256x40x64_S256x64x64_S256x40x64_2_1_1_2_0_0_wf : DotDims.WF S256x40x64 S256x64x64 S256x40x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x40x64.size a ≤ S2048x40x64.size a
  hwx0_0 : ∀ i : grid0.Coords, EltTy.bits .f32 = 32 ∨ (Rect.block (s := S2048x40x64) S256x40x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64x128.size a ≤ S3x64x128.size a
  hwx0_1 : ∀ i : grid0.Coords, EltTy.bits .f32 = 32 ∨ (Rect.block (s := S3x64x128) S3x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40x1.size a ≤ S40x1.size a
  hwx0_2 : ∀ i : grid0.Coords, EltTy.bits .f32 = 32 ∨ (Rect.block (s := S40x1) S40x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S2048x64.size a
  hwx0_3 : ∀ i : grid0.Coords, EltTy.bits .f32 = 32 ∨ (Rect.block (s := S2048x64) S256x64.size (cc0_transform_3 i) (hinb0_3 i)).WholeWords (EltTy.packing .f32)

variable [Facts₀]

def dot_S10240x64_S64x128_S10240x128_1_0_0_1_n_n : DotDims S10240x64 S64x128 S10240x128 where
  lhsContracting := [1]
  rhsContracting := [0]
  lhsNonContracting := [0]
  rhsNonContracting := [1]
  lhsBatch := []
  rhsBatch := []
  wf := dot_S10240x64_S64x128_S10240x128_1_0_0_1_n_n_wf
def dot_S256x40x64_S256x40x64_S256x64x64_1_1_2_2_0_0 : DotDims S256x40x64 S256x40x64 S256x64x64 where
  lhsContracting := [1]
  rhsContracting := [1]
  lhsNonContracting := [2]
  rhsNonContracting := [2]
  lhsBatch := [0]
  rhsBatch := [0]
  wf := dot_S256x40x64_S256x40x64_S256x64x64_1_1_2_2_0_0_wf
def dot_S256x40x64_S256x64x64_S256x40x64_2_1_1_2_0_0 : DotDims S256x40x64 S256x64x64 S256x40x64 where
  lhsContracting := [2]
  rhsContracting := [1]
  lhsNonContracting := [1]
  rhsNonContracting := [2]
  lhsBatch := [0]
  rhsBatch := [0]
  wf := dot_S256x40x64_S256x64x64_S256x40x64_2_1_1_2_0_0_wf

abbrev win0_0 : Pipeline.Window sig grid0 :=
  Pipeline.Window.ofSpec (Memref.whole main_arg0) S256x40x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S40x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x40x64 : Shape := ⟨3, ![2048, 40, 64]⟩
abbrev S3x64x64 : Shape := ⟨3, ![3, 64, 64]⟩
abbrev S40x1 : Shape := ⟨2, ![40, 1]⟩
abbrev S1x64x64 : Shape := ⟨3, ![1, 64, 64]⟩
abbrev S64x64 : Shape := ⟨2, ![64, 64]⟩
abbrev S2048x40x40 : Shape := ⟨3, ![2048, 40, 40]⟩
abbrev S1x40x1 : Shape := ⟨3, ![1, 40, 1]⟩
abbrev S_ : Shape := ⟨0, ![]⟩
abbrev S2048x64 : Shape := ⟨2, ![2048, 64]⟩

abbrev nBuf : Space → Nat
  | .hbm => 39
  | .vmem => 0
  | .smem => 0
  | _ => 0

abbrev bufTy : (tb : Table) → Fin (tcTables nBuf tb) → BufTy
  | .hbm, ⟨0, _⟩ => ⟨S2048x40x64, .f32⟩
  | .hbm, ⟨1, _⟩ => ⟨S3x64x64, .f32⟩
  | .hbm, ⟨2, _⟩ => ⟨S3x64x64, .f32⟩
  | .hbm, ⟨3, _⟩ => ⟨S40x1, .f32⟩
  | .hbm, ⟨4, _⟩ => ⟨S1x64x64, .f32⟩
  | .hbm, ⟨5, _⟩ => ⟨S64x64, .f32⟩
  | .hbm, ⟨6, _⟩ => ⟨S1x64x64, .f32⟩
  | .hbm, ⟨7, _⟩ => ⟨S64x64, .f32⟩
  | .hbm, ⟨8, _⟩ => ⟨S2048x40x64, .f32⟩
  | .hbm, ⟨9, _⟩ => ⟨S2048x40x40, .f32⟩
  | .hbm, ⟨10, _⟩ => ⟨S2048x40x64, .f32⟩
  | .hbm, ⟨11, _⟩ => ⟨S2048x40x64, .f32⟩
  | .hbm, ⟨12, _⟩ => ⟨S2048x40x64, .f32⟩
  | .hbm, ⟨13, _⟩ => ⟨S2048x40x64, .f32⟩
  | .hbm, ⟨14, _⟩ => ⟨S1x64x64, .f32⟩
  | .hbm, ⟨15, _⟩ => ⟨S64x64, .f32⟩
  | .hbm, ⟨16, _⟩ => ⟨S1x64x64, .f32⟩
  | .hbm, ⟨17, _⟩ => ⟨S64x64, .f32⟩
  | .hbm, ⟨18, _⟩ => ⟨S2048x40x64, .f32⟩
  | .hbm, ⟨19, _⟩ => ⟨S2048x40x40, .f32⟩
  | .hbm, ⟨20, _⟩ => ⟨S2048x40x64, .f32⟩
  | .hbm, ⟨21, _⟩ => ⟨S2048x40x64, .f32⟩
  | .hbm, ⟨22, _⟩ => ⟨S2048x40x64, .f32⟩
  | .hbm, ⟨23, _⟩ => ⟨S2048x40x64, .f32⟩
  | .hbm, ⟨24, _⟩ => ⟨S1x64x64, .f32⟩
  | .hbm, ⟨25, _⟩ => ⟨S64x64, .f32⟩
  | .hbm, ⟨26, _⟩ => ⟨S1x64x64, .f32⟩
  | .hbm, ⟨27, _⟩ => ⟨S64x64, .f32⟩
  | .hbm, ⟨28, _⟩ => ⟨S2048x40x64, .f32⟩
  | .hbm, ⟨29, _⟩ => ⟨S2048x40x40, .f32⟩
  | .hbm, ⟨30, _⟩ => ⟨S2048x40x64, .f32⟩
  | .hbm, ⟨31, _⟩ => ⟨S2048x40x64, .f32⟩
  | .hbm, ⟨32, _⟩ => ⟨S2048x40x64, .f32⟩
  | .hbm, ⟨33, _⟩ => ⟨S2048x40x64, .f32⟩
  | .hbm, ⟨34, _⟩ => ⟨S1x40x1, .f32⟩
  | .hbm, ⟨35, _⟩ => ⟨S2048x40x64, .f32⟩
  | .hbm, ⟨36, _⟩ => ⟨S2048x40x64, .f32⟩
  | .hbm, ⟨37, _⟩ => ⟨S_, .f32⟩
  | .hbm, ⟨38, _⟩ => ⟨S2048x64, .f32⟩
  | _, _ => ⟨S2048x40x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst : Ref sig .tc := ⟨.hbm, 37, rfl⟩
abbrev main_v33 : Ref sig .tc := ⟨.hbm, 38, rfl⟩

abbrev nD : Nat := 1
abbrev τ : Topo := Topo.v7x

variable {F : FTy → Type} [FloatOps F]

class Facts₀ : Prop where
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  bcast_S40x1_S1x40x1_1_2 : S40x1.BroadcastsInDim S1x40x1 (![1, 2] : Fin 2 → Fin S1x40x1.rank)
  bcast_S1x40x1_S2048x40x64_0_1_2 : S1x40x1.BroadcastsInDim S2048x40x64 (![0, 1, 2] : Fin 3 → Fin S2048x40x64.rank)
  reducesTo_S2048x40x64_S2048x64_d1 : S2048x40x64.ReducesTo [1] S2048x64
  h_S_ : 0 < S_.numel
  dot_S2048x40x64_S64x64_S2048x40x64_2_1_01_0_n_n_wf : DotDims.WF S2048x40x64 S64x64 S2048x40x64 [2] [1] [0, 1] [0] [] []
  dot_S2048x40x64_S2048x40x64_S2048x40x40_2_2_1_1_0_0_wf : DotDims.WF S2048x40x64 S2048x40x64 S2048x40x40 [2] [2] [1] [1] [0] [0]
  dot_S2048x40x40_S2048x40x64_S2048x40x64_2_1_1_2_0_0_wf : DotDims.WF S2048x40x40 S2048x40x64 S2048x40x64 [2] [1] [1] [2] [0] [0]

variable [Facts₀]

def dot_S2048x40x64_S64x64_S2048x40x64_2_1_01_0_n_n : DotDims S2048x40x64 S64x64 S2048x40x64 where
  lhsContracting := [2]
  rhsContracting := [1]
  lhsNonContracting := [0, 1]
  rhsNonContracting := [0]
  lhsBatch := []
  rhsBatch := []
  wf := dot_S2048x40x64_S64x64_S2048x40x64_2_1_01_0_n_n_wf
def dot_S2048x40x64_S2048x40x64_S2048x40x40_2_2_1_1_0_0 : DotDims S2048x40x64 S2048x40x64 S2048x40x40 where
  lhsContracting := [2]
  rhsContracting := [2]
  lhsNonContracting := [1]
  rhsNonContracting := [1]
  lhsBatch := [0]
  rhsBatch := [0]
  wf := dot_S2048x40x64_S2048x40x64_S2048x40x40_2_2_1_1_0_0_wf
def dot_S2048x40x40_S2048x40x64_S2048x40x64_2_1_1_2_0_0 : DotDims S2048x40x40 S2048x40x64 S2048x40x64 where
  lhsContracting := [2]
  rhsContracting := [1]
  lhsNonContracting := [1]
  rhsNonContracting := [2]
  lhsBatch := [0]
  rhsBatch := [0]
  wf := dot_S2048x40x40_S2048x40x64_S2048x40x64_2_1_1_2_0_0_wf

class Facts : Prop extends Facts₀ where

variable [Facts]
-- ==== Proof.LayerAlgebra.lean ====
/-
  The algebra of one attention-like layer, on the extended reals and on the reals.

  A layer takes a block `x` of N rows of D numbers and two D × D matrices `k`, `q`.  With the projection
  `P x k m e = ∑ d, x m d * k e d` (a row of `x` against a row of `k`), the layer's result at (n, e) is
  `x n e * T n e + P x q n e`, where the triple product `T` can be bracketed two ways:
    * rows first:      T n e = ∑ d, x n d * (∑ m, P x k m d * x m e)      (a D × D Gram-like matrix, then one product)
    * similarity first: T n e = ∑ m, (∑ d, x n d * P x k m d) * x m e      (an N × N similarity matrix, then one product)
  On the reals the two are equal: distributivity and an exchange of the two finite sums.  On the extended reals they
  are equal as soon as every entry of `x`, `k`, `q` is a real number, because then every partial result is a real
  number too and the coercion of ℝ into the extended reals commutes with +, * and finite sums.
-/
import Idealize.ShloMosaic.PureOps.Ideal

noncomputable section

namespace Cert.Sam

open scoped BigOperators

/-- The coercion of the reals into the extended reals commutes with finite sums. -/
theorem coe_sum {ι : Type*} (s : Finset ι) (f : ι → ℝ) : ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

variable {N D : ℕ}

/-! ## On the extended reals -/

/-- Row `m` of `x` against row `e` of `k`. -/
def proj (x : Fin N → Fin D → EReal) (k : Fin D → Fin D → EReal) (m : Fin N) (e : Fin D) : EReal :=
  ∑ d : Fin D, x m d * k e d

/-- The layer with the triple product bracketed rows first. -/
def layerRows (x : Fin N → Fin D → EReal) (k q : Fin D → Fin D → EReal) (n : Fin N) (e : Fin D) : EReal :=
  x n e * (∑ d : Fin D, x n d * ∑ m : Fin N, proj x k m d * x m e) + proj x q n e

/-- The layer with the triple product bracketed similarity first. -/
def layerSim (x : Fin N → Fin D → EReal) (k q : Fin D → Fin D → EReal) (n : Fin N) (e : Fin D) : EReal :=
  x n e * (∑ m : Fin N, (∑ d : Fin D, x n d * proj x k m d) * x m e) + proj x q n e

/-- The weighted sum of the rows of a block. -/
def pool (x : Fin N → Fin D → EReal) (w : Fin N → EReal) (e : Fin D) : EReal :=
  ∑ n : Fin N, x n e * w n

/-! ## On the reals -/

/-- The layer on the reals (similarity first). -/
def layerReal (x : Fin N → Fin D → ℝ) (k q : Fin D → Fin D → ℝ) (n : Fin N) (e : Fin D) : ℝ :=
  x n e * (∑ m : Fin N, (∑ d : Fin D, x n d * ∑ d' : Fin D, x m d' * k d d') * x m e) + ∑ d : Fin D, x n d * q e d

/-- The exchange of the two sums: rows first equals similarity first, on the reals. -/
theorem triple_comm (x : Fin N → Fin D → ℝ) (k : Fin D → Fin D → ℝ) (n : Fin N) (e : Fin D) :
    ∑ d : Fin D, x n d * ∑ m : Fin N, (∑ d' : Fin D, x m d' * k d d') * x m e
      = ∑ m : Fin N, (∑ d : Fin D, x n d * ∑ d' : Fin D, x m d' * k d d') * x m e := by
  simp only [Finset.mul_sum, Finset.sum_mul]
  rw [Finset.sum_comm]
  refine Finset.sum_congr rfl fun m _ => Finset.sum_congr rfl fun d _ => Finset.sum_congr rfl fun d' _ => ?_
  ring

/-- Similarity first, on real entries, is the coercion of the real layer. -/
theorem layerSim_coe (x : Fin N → Fin D → ℝ) (k q : Fin D → Fin D → ℝ) :
    layerSim (fun n d => (x n d : EReal)) (fun e d => (k e d : EReal)) (fun e d => (q e d : EReal))
      = fun n e => ((layerReal x k q n e : ℝ) : EReal) := by
  funext n e
  simp only [layerSim, proj, layerReal, EReal.coe_add, EReal.coe_mul, coe_sum]

/-- Rows first, on real entries, is the coercion of the same real layer. -/
theorem layerRows_coe (x : Fin N → Fin D → ℝ) (k q : Fin D → Fin D → ℝ) :
    layerRows (fun n d => (x n d : EReal)) (fun e d => (k e d : EReal)) (fun e d => (q e d : EReal))
      = fun n e => ((layerReal x k q n e : ℝ) : EReal) := by
  funext n e
  have h : layerReal x k q n e
      = x n e * (∑ d : Fin D, x n d * ∑ m : Fin N, (∑ d' : Fin D, x m d' * k d d') * x m e) + ∑ d : Fin D, x n d * q e d := by
    unfold layerReal; rw [triple_comm]
  rw [h]
  simp only [layerRows, proj, EReal.coe_add, EReal.coe_mul, coe_sum]

/-- Three layers in a row, rows first and similarity first, agree on real entries. -/
theorem three_layers (x : Fin N → Fin D → ℝ) (k0 q0 k1 q1 k2 q2 : Fin D → Fin D → ℝ) :
    layerRows (layerRows (layerRows (fun n d => (x n d : EReal)) (fun e d => (k0 e d : EReal)) (fun e d => (q0 e d : EReal)))
        (fun e d => (k1 e d : EReal)) (fun e d => (q1 e d : EReal))) (fun e d => (k2 e d : EReal)) (fun e d => (q2 e d : EReal))
      = layerSim (layerSim (layerSim (fun n d => (x n d : EReal)) (fun e d => (k0 e d : EReal)) (fun e d => (q0 e d : EReal)))
        (fun e d => (k1 e d : EReal)) (fun e d => (q1 e d : EReal))) (fun e d => (k2 e d : EReal)) (fun e d => (q2 e d : EReal)) := by
  rw [layerRows_coe, layerRows_coe, layerRows_coe, layerSim_coe, layerSim_coe, layerSim_coe]

end Cert.Sam

end
-- ==== Proof.KernelBody.lean ====
/-
  One layer of the kernel's body, read at an index (at the ideal values).

  The body holds a block `x` of 256 samples × 40 rows × 64 numbers and one 64 × 128 slab `wc` of the fused weight
  array (columns 0–63: the key matrix transposed, columns 64–127: the query matrix transposed).  It flattens `x` to
  10240 × 64, multiplies by the slab (one product gives both projections), cuts the product into its two halves, forms
  per sample the 64 × 64 matrix  ∑ₘ key[m, d] · x[m, e], multiplies `x` by it and finishes with  x · (…) + query.
  Read at sample b, row n, column e this is `Cert.Sam.layerRows` of sample b's rows and of the slab's two halves.
  Three things are proved: each of the three matrix products as a plain sum over its contracted coordinate (the
  coordinates of the operands' indices are read off the dimension numbers), the flatten / unflatten / cut steps at an
  index, and their composition.
-/
import proofs.«116613_j27934467293444_2_alg».proof.Proof.Gen.KernelIdeal
import proofs.«116613_j27934467293444_2_alg».proof.Proof.LayerAlgebra
import Idealize.ShloMosaic.Lib.Pipeline.Value
import Idealize.ShloMosaic.Lib.ValueIdx
import Idealize.ShloMosaic.PureOps.Ideal.Laws

noncomputable section

namespace Cert.KernelIdeal.SamBody

open Cert.KernelIdeal Cert.KernelIdeal.Gen Idealize.ShloMosaic Idealize.ShloMosaic.ValueIdx

/-! ## The operands' indices of the three products, coordinate by coordinate -/

theorem proj_lhs0 (i : S10240x128.Idx) (q : dot_S10240x64_S64x128_S10240x128_1_0_0_1_n_n.contr.Idx) :
    (dot_S10240x64_S64x128_S10240x128_1_0_0_1_n_n.lhsIdx i q 0).val = (i 0).val := by
  unfold DotDims.lhsIdx
  rw [dif_neg (show ¬(0 : Fin S10240x64.rank) ∈ dot_S10240x64_S64x128_S10240x128_1_0_0_1_n_n.lhsBatch by decide), dif_pos (show (0 : Fin S10240x64.rank) ∈ dot_S10240x64_S64x128_S10240x128_1_0_0_1_n_n.lhsNonContracting by decide)]
  rfl
theorem proj_lhs1 (i : S10240x128.Idx) (q : dot_S10240x64_S64x128_S10240x128_1_0_0_1_n_n.contr.Idx) :
    (dot_S10240x64_S64x128_S10240x128_1_0_0_1_n_n.lhsIdx i q 1).val = (q ⟨0, by decide⟩).val :=
  dot_S10240x64_S64x128_S10240x128_1_0_0_1_n_n.lhsIdx_val_of_single rfl i q
theorem proj_rhs0 (i : S10240x128.Idx) (q : dot_S10240x64_S64x128_S10240x128_1_0_0_1_n_n.contr.Idx) :
    (dot_S10240x64_S64x128_S10240x128_1_0_0_1_n_n.rhsIdx i q 0).val = (q ⟨0, by decide⟩).val :=
  dot_S10240x64_S64x128_S10240x128_1_0_0_1_n_n.rhsIdx_val_of_single rfl i q
theorem proj_rhs1 (i : S10240x128.Idx) (q : dot_S10240x64_S64x128_S10240x128_1_0_0_1_n_n.contr.Idx) :
    (dot_S10240x64_S64x128_S10240x128_1_0_0_1_n_n.rhsIdx i q 1).val = (i 1).val := by
  unfold DotDims.rhsIdx
  rw [dif_neg (show ¬(1 : Fin S64x128.rank) ∈ dot_S10240x64_S64x128_S10240x128_1_0_0_1_n_n.rhsBatch by decide), dif_pos (show (1 : Fin S64x128.rank) ∈ dot_S10240x64_S64x128_S10240x128_1_0_0_1_n_n.rhsNonContracting by decide)]
  rfl

theorem gram_lhs0 (i : S256x64x64.Idx) (q : dot_S256x40x64_S256x40x64_S256x64x64_1_1_2_2_0_0.contr.Idx) :
    (dot_S256x40x64_S256x40x64_S256x64x64_1_1_2_2_0_0.lhsIdx i q 0).val = (i 0).val := by
  unfold DotDims.lhsIdx
  rw [dif_pos (show (0 : Fin S256x40x64.rank) ∈ dot_S256x40x64_S256x40x64_S256x64x64_1_1_2_2_0_0.lhsBatch by decide)]
  rfl
theorem gram_lhs1 (i : S256x64x64.Idx) (q : dot_S256x40x64_S256x40x64_S256x64x64_1_1_2_2_0_0.contr.Idx) :
    (dot_S256x40x64_S256x40x64_S256x64x64_1_1_2_2_0_0.lhsIdx i q 1).val = (q ⟨0, by decide⟩).val :=
  dot_S256x40x64_S256x40x64_S256x64x64_1_1_2_2_0_0.lhsIdx_val_of_single rfl i q
theorem gram_lhs2 (i : S256x64x64.Idx) (q : dot_S256x40x64_S256x40x64_S256x64x64_1_1_2_2_0_0.contr.Idx) :
    (dot_S256x40x64_S256x40x64_S256x64x64_1_1_2_2_0_0.lhsIdx i q 2).val = (i 1).val := by
  unfold DotDims.lhsIdx
  rw [dif_neg (show ¬(2 : Fin S256x40x64.rank) ∈ dot_S256x40x64_S256x40x64_S256x64x64_1_1_2_2_0_0.lhsBatch by decide), dif_pos (show (2 : Fin S256x40x64.rank) ∈ dot_S256x40x64_S256x40x64_S256x64x64_1_1_2_2_0_0.lhsNonContracting by decide)]
  rfl
theorem gram_rhs0 (i : S256x64x64.Idx) (q : dot_S256x40x64_S256x40x64_S256x64x64_1_1_2_2_0_0.contr.Idx) :
    (dot_S256x40x64_S256x40x64_S256x64x64_1_1_2_2_0_0.rhsIdx i q 0).val = (i 0).val := by
  unfold DotDims.rhsIdx
  rw [dif_pos (show (0 : Fin S256x40x64.rank) ∈ dot_S256x40x64_S256x40x64_S256x64x64_1_1_2_2_0_0.rhsBatch by decide)]
  rfl
theorem gram_rhs1 (i : S256x64x64.Idx) (q : dot_S256x40x64_S256x40x64_S256x64x64_1_1_2_2_0_0.contr.Idx) :
    (dot_S256x40x64_S256x40x64_S256x64x64_1_1_2_2_0_0.rhsIdx i q 1).val = (q ⟨0, by decide⟩).val :=
  dot_S256x40x64_S256x40x64_S256x64x64_1_1_2_2_0_0.rhsIdx_val_of_single rfl i q
theorem gram_rhs2 (i : S256x64x64.Idx) (q : dot_S256x40x64_S256x40x64_S256x64x64_1_1_2_2_0_0.contr.Idx) :
    (dot_S256x40x64_S256x40x64_S256x64x64_1_1_2_2_0_0.rhsIdx i q 2).val = (i 2).val := by
  unfold DotDims.rhsIdx
  rw [dif_neg (show ¬(2 : Fin S256x40x64.rank) ∈ dot_S256x40x64_S256x40x64_S256x64x64_1_1_2_2_0_0.rhsBatch by decide), dif_pos (show (2 : Fin S256x40x64.rank) ∈ dot_S256x40x64_S256x40x64_S256x64x64_1_1_2_2_0_0.rhsNonContracting by decide)]
  rfl

theorem appl_lhs0 (i : S256x40x64.Idx) (q : dot_S256x40x64_S256x64x64_S256x40x64_2_1_1_2_0_0.contr.Idx) :
    (dot_S256x40x64_S256x64x64_S256x40x64_2_1_1_2_0_0.lhsIdx i q 0).val = (i 0).val := by
  unfold DotDims.lhsIdx
  rw [dif_pos (show (0 : Fin S256x40x64.rank) ∈ dot_S256x40x64_S256x64x64_S256x40x64_2_1_1_2_0_0.lhsBatch by decide)]
  rfl
theorem appl_lhs1 (i : S256x40x64.Idx) (q : dot_S256x40x64_S256x64x64_S256x40x64_2_1_1_2_0_0.contr.Idx) :
    (dot_S256x40x64_S256x64x64_S256x40x64_2_1_1_2_0_0.lhsIdx i q 1).val = (i 1).val := by
  unfold DotDims.lhsIdx
  rw [dif_neg (show ¬(1 : Fin S256x40x64.rank) ∈ dot_S256x40x64_S256x64x64_S256x40x64_2_1_1_2_0_0.lhsBatch by decide), dif_pos (show (1 : Fin S256x40x64.rank) ∈ dot_S256x40x64_S256x64x64_S256x40x64_2_1_1_2_0_0.lhsNonContracting by decide)]
  rfl
theorem appl_lhs2 (i : S256x40x64.Idx) (q : dot_S256x40x64_S256x64x64_S256x40x64_2_1_1_2_0_0.contr.Idx) :
    (dot_S256x40x64_S256x64x64_S256x40x64_2_1_1_2_0_0.lhsIdx i q 2).val = (q ⟨0, by decide⟩).val :=
  dot_S256x40x64_S256x64x64_S256x40x64_2_1_1_2_0_0.lhsIdx_val_of_single rfl i q
theorem appl_rhs0 (i : S256x40x64.Idx) (q : dot_S256x40x64_S256x64x64_S256x40x64_2_1_1_2_0_0.contr.Idx) :
    (dot_S256x40x64_S256x64x64_S256x40x64_2_1_1_2_0_0.rhsIdx i q 0).val = (i 0).val := by
  unfold DotDims.rhsIdx
  rw [dif_pos (show (0 : Fin S256x64x64.rank) ∈ dot_S256x40x64_S256x64x64_S256x40x64_2_1_1_2_0_0.rhsBatch by decide)]
  rfl
theorem appl_rhs1 (i : S256x40x64.Idx) (q : dot_S256x40x64_S256x64x64_S256x40x64_2_1_1_2_0_0.contr.Idx) :
    (dot_S256x40x64_S256x64x64_S256x40x64_2_1_1_2_0_0.rhsIdx i q 1).val = (q ⟨0, by decide⟩).val :=
  dot_S256x40x64_S256x64x64_S256x40x64_2_1_1_2_0_0.rhsIdx_val_of_single rfl i q
theorem appl_rhs2 (i : S256x40x64.Idx) (q : dot_S256x40x64_S256x64x64_S256x40x64_2_1_1_2_0_0.contr.Idx) :
    (dot_S256x40x64_S256x64x64_S256x40x64_2_1_1_2_0_0.rhsIdx i q 2).val = (i 2).val := by
  unfold DotDims.rhsIdx
  rw [dif_neg (show ¬(2 : Fin S256x64x64.rank) ∈ dot_S256x40x64_S256x64x64_S256x40x64_2_1_1_2_0_0.rhsBatch by decide), dif_pos (show (2 : Fin S256x64x64.rank) ∈ dot_S256x40x64_S256x64x64_S256x40x64_2_1_1_2_0_0.rhsNonContracting by decide)]
  rfl

/-! ## The three products as sums -/

/-- The flattened block times the slab: row `i`, column `c` is the sum over the 64 inner coordinates. -/
theorem projMat_apply (l : FVec Ideal S10240x64 .f32) (r : FVec Ideal S64x128 .f32) (i : Fin 10240) (c : Fin 128) :
    matmul dot_S10240x64_S64x128_S10240x128_1_0_0_1_n_n none l r (constant (F := Ideal) S10240x128 .f32 0x00000000#32) (ix2 i c)
      = ∑ k : Fin 64, l (ix2 i k) * r (ix2 k c) := by
  simp only [matmul]
  rw [Ideal.matmul_constant_zero_apply, ← Equiv.sum_comp (contrEquiv1 dot_S10240x64_S64x128_S10240x128_1_0_0_1_n_n 64 rfl rfl).symm]
  refine Finset.sum_congr rfl fun k _ => ?_
  have hk := contrEquiv1_symm_val dot_S10240x64_S64x128_S10240x128_1_0_0_1_n_n 64 rfl rfl k
  have el : dot_S10240x64_S64x128_S10240x128_1_0_0_1_n_n.lhsIdx (ix2 i c) ((contrEquiv1 dot_S10240x64_S64x128_S10240x128_1_0_0_1_n_n 64 rfl rfl).symm k) = ix2 i k := funext fun a => Fin.ext (by
    match a with
    | ⟨0, _⟩ => exact proj_lhs0 _ _
    | ⟨1, _⟩ => exact (proj_lhs1 _ _).trans hk)
  have er : dot_S10240x64_S64x128_S10240x128_1_0_0_1_n_n.rhsIdx (ix2 i c) ((contrEquiv1 dot_S10240x64_S64x128_S10240x128_1_0_0_1_n_n 64 rfl rfl).symm k) = ix2 k c := funext fun a => Fin.ext (by
    match a with
    | ⟨0, _⟩ => exact (proj_rhs0 _ _).trans hk
    | ⟨1, _⟩ => exact proj_rhs1 _ _)
  rw [el, er]

/-- Per sample, keys transposed times the block: entry (d, e) is the sum over the 40 rows. -/
theorem gramMat_apply (l r : FVec Ideal S256x40x64 .f32) (b : Fin 256) (d e : Fin 64) :
    matmul dot_S256x40x64_S256x40x64_S256x64x64_1_1_2_2_0_0 none l r (constant (F := Ideal) S256x64x64 .f32 0x00000000#32) (ix3 b d e)
      = ∑ k : Fin 40, l (ix3 b k d) * r (ix3 b k e) := by
  simp only [matmul]
  rw [Ideal.matmul_constant_zero_apply, ← Equiv.sum_comp (contrEquiv1 dot_S256x40x64_S256x40x64_S256x64x64_1_1_2_2_0_0 40 rfl rfl).symm]
  refine Finset.sum_congr rfl fun k _ => ?_
  have hk := contrEquiv1_symm_val dot_S256x40x64_S256x40x64_S256x64x64_1_1_2_2_0_0 40 rfl rfl k
  have el : dot_S256x40x64_S256x40x64_S256x64x64_1_1_2_2_0_0.lhsIdx (ix3 b d e) ((contrEquiv1 dot_S256x40x64_S256x40x64_S256x64x64_1_1_2_2_0_0 40 rfl rfl).symm k) = ix3 b k d := funext fun a => Fin.ext (by
    match a with
    | ⟨0, _⟩ => exact gram_lhs0 _ _
    | ⟨1, _⟩ => exact (gram_lhs1 _ _).trans hk
    | ⟨2, _⟩ => exact gram_lhs2 _ _)
  have er : dot_S256x40x64_S256x40x64_S256x64x64_1_1_2_2_0_0.rhsIdx (ix3 b d e) ((contrEquiv1 dot_S256x40x64_S256x40x64_S256x64x64_1_1_2_2_0_0 40 rfl rfl).symm k) = ix3 b k e := funext fun a => Fin.ext (by
    match a with
    | ⟨0, _⟩ => exact gram_rhs0 _ _
    | ⟨1, _⟩ => exact (gram_rhs1 _ _).trans hk
    | ⟨2, _⟩ => exact gram_rhs2 _ _)
  rw [el, er]

/-- Per sample, the block times a 64 × 64 matrix: entry (n, e) is the sum over the 64 inner coordinates. -/
theorem applMat_apply (l : FVec Ideal S256x40x64 .f32) (r : FVec Ideal S256x64x64 .f32) (b : Fin 256) (n : Fin 40) (e : Fin 64) :
    matmul dot_S256x40x64_S256x64x64_S256x40x64_2_1_1_2_0_0 none l r (constant (F := Ideal) S256x40x64 .f32 0x00000000#32) (ix3 b n e)
      = ∑ k : Fin 64, l (ix3 b n k) * r (ix3 b k e) := by
  simp only [matmul]
  rw [Ideal.matmul_constant_zero_apply, ← Equiv.sum_comp (contrEquiv1 dot_S256x40x64_S256x64x64_S256x40x64_2_1_1_2_0_0 64 rfl rfl).symm]
  refine Finset.sum_congr rfl fun k _ => ?_
  have hk := contrEquiv1_symm_val dot_S256x40x64_S256x64x64_S256x40x64_2_1_1_2_0_0 64 rfl rfl k
  have el : dot_S256x40x64_S256x64x64_S256x40x64_2_1_1_2_0_0.lhsIdx (ix3 b n e) ((contrEquiv1 dot_S256x40x64_S256x64x64_S256x40x64_2_1_1_2_0_0 64 rfl rfl).symm k) = ix3 b n k := funext fun a => Fin.ext (by
    match a with
    | ⟨0, _⟩ => exact appl_lhs0 _ _
    | ⟨1, _⟩ => exact appl_lhs1 _ _
    | ⟨2, _⟩ => exact (appl_lhs2 _ _).trans hk)
  have er : dot_S256x40x64_S256x64x64_S256x40x64_2_1_1_2_0_0.rhsIdx (ix3 b n e) ((contrEquiv1 dot_S256x40x64_S256x64x64_S256x40x64_2_1_1_2_0_0 64 rfl rfl).symm k) = ix3 b k e := funext fun a => Fin.ext (by
    match a with
    | ⟨0, _⟩ => exact appl_rhs0 _ _
    | ⟨1, _⟩ => exact (appl_rhs1 _ _).trans hk
    | ⟨2, _⟩ => exact appl_rhs2 _ _)
  rw [el, er]

/-! ## One layer -/

/-- Column `e` of the slab's first half, and of its second half. -/
def colLo (e : Fin 64) : Fin 128 := ⟨e.val, by have := e.isLt; omega⟩
def colHi (e : Fin 64) : Fin 128 := ⟨64 + e.val, by have := e.isLt; omega⟩

/-- Both projections at once: the block flattened, times the slab, unflattened. -/
def projAll (x : FVec Ideal S256x40x64 .f32) (wc : FVec Ideal S1x64x128 .f32) : FVec Ideal S256x40x128 .f32 :=
  shapeCast S256x40x128
    (matmul dot_S10240x64_S64x128_S10240x128_1_0_0_1_n_n none (shapeCast S10240x64 x shapeCasts_S256x40x64_S10240x64)
      (shapeCast S64x128 wc shapeCasts_S1x64x128_S64x128) (constant S10240x128 .f32 0x00000000#32))
    shapeCasts_S10240x128_S256x40x128

/-- The key half and the query half of the projections. -/
def keyPart (x : FVec Ideal S256x40x64 .f32) (wc : FVec Ideal S1x64x128 .f32) : FVec Ideal S256x40x64 .f32 :=
  extractStridedSlice S256x40x64 ![0, 0, 0] (projAll x wc) slices_S256x40x128_o0_0_0_S256x40x64
def qryPart (x : FVec Ideal S256x40x64 .f32) (wc : FVec Ideal S1x64x128 .f32) : FVec Ideal S256x40x64 .f32 :=
  extractStridedSlice S256x40x64 ![0, 0, 64] (projAll x wc) slices_S256x40x128_o0_0_64_S256x40x64

/-- Per sample, the 64 × 64 matrix of keys against the block. -/
def gram (x : FVec Ideal S256x40x64 .f32) (wc : FVec Ideal S1x64x128 .f32) : FVec Ideal S256x64x64 .f32 :=
  matmul dot_S256x40x64_S256x40x64_S256x64x64_1_1_2_2_0_0 none (keyPart x wc) x (constant S256x64x64 .f32 0x00000000#32)

/-- One layer of the body. -/
def kLayer (x : FVec Ideal S256x40x64 .f32) (wc : FVec Ideal S1x64x128 .f32) : FVec Ideal S256x40x64 .f32 :=
  addf (mulf x (matmul dot_S256x40x64_S256x64x64_S256x40x64_2_1_1_2_0_0 none x (gram x wc) (constant S256x40x64 .f32 0x00000000#32))) (qryPart x wc)

/-- The projections at (b, m, c): row (b, m) of the block against column `c` of the slab. -/
theorem projAll_apply (x : FVec Ideal S256x40x64 .f32) (wc : FVec Ideal S1x64x128 .f32) (b : Fin 256) (m : Fin 40) (c : Fin 128) :
    projAll x wc (ix3 b m c) = ∑ d : Fin 64, x (ix3 b m d) * wc (ix3 (0 : Fin 1) d c) := by
  have hb := b.isLt; have hm := m.isLt
  unfold projAll
  rw [shapeCast_apply _ shapeCasts_S10240x128_S256x40x128 (ix3 b m c) (ix2 (⟨b.val * 40 + m.val, by omega⟩ : Fin 10240) c)
    (by rewrite [Shape.rowMajor_val_two, Shape.rowMajor_val_three]; show (b.val * 40 + m.val) * 128 + c.val = (b.val * 40 + m.val) * 128 + c.val; rfl)]
  rw [projMat_apply]
  refine Finset.sum_congr rfl fun d _ => ?_
  rw [shapeCast_apply x shapeCasts_S256x40x64_S10240x64 (ix2 (⟨b.val * 40 + m.val, by omega⟩ : Fin 10240) d) (ix3 b m d)
      (by rewrite [Shape.rowMajor_val_two, Shape.rowMajor_val_three]; show (b.val * 40 + m.val) * 64 + d.val = (b.val * 40 + m.val) * 64 + d.val; rfl),
    shapeCast_apply wc shapeCasts_S1x64x128_S64x128 (ix2 d c) (ix3 (0 : Fin 1) d c)
      (by rewrite [Shape.rowMajor_val_two, Shape.rowMajor_val_three]; show (0 * 64 + d.val) * 128 + c.val = d.val * 128 + c.val; omega)]

theorem keyPart_apply (x : FVec Ideal S256x40x64 .f32) (wc : FVec Ideal S1x64x128 .f32) (b : Fin 256) (m : Fin 40) (d : Fin 64) :
    keyPart x wc (ix3 b m d) = projAll x wc (ix3 b m (colLo d)) := by
  unfold keyPart
  generalize projAll x wc = y
  exact extractStridedSlice_apply ![0, 0, 0] y slices_S256x40x128_o0_0_0_S256x40x64 (ix3 b m d) (ix3 b m (colLo d))
    (fun a => match a with
      | ⟨0, _⟩ => by show b.val = 0 + b.val; omega
      | ⟨1, _⟩ => by show m.val = 0 + m.val; omega
      | ⟨2, _⟩ => by show d.val = 0 + d.val; omega)

theorem qryPart_apply (x : FVec Ideal S256x40x64 .f32) (wc : FVec Ideal S1x64x128 .f32) (b : Fin 256) (n : Fin 40) (e : Fin 64) :
    qryPart x wc (ix3 b n e) = projAll x wc (ix3 b n (colHi e)) := by
  unfold qryPart
  generalize projAll x wc = y
  exact extractStridedSlice_apply ![0, 0, 64] y slices_S256x40x128_o0_0_64_S256x40x64 (ix3 b n e) (ix3 b n (colHi e))
    (fun a => match a with
      | ⟨0, _⟩ => by show b.val = 0 + b.val; omega
      | ⟨1, _⟩ => by show n.val = 0 + n.val; omega
      | ⟨2, _⟩ => by show 64 + e.val = 64 + e.val; rfl)

theorem gram_apply (x : FVec Ideal S256x40x64 .f32) (wc : FVec Ideal S1x64x128 .f32) (b : Fin 256) (d e : Fin 64) :
    gram x wc (ix3 b d e) = ∑ m : Fin 40, keyPart x wc (ix3 b m d) * x (ix3 b m e) := by
  unfold gram
  exact gramMat_apply _ _ b d e

/-- The key matrix and the query matrix a slab holds: entry (e, d) is the slab at row d, column e of the half. -/
def slabLo (wc : FVec Ideal S1x64x128 .f32) : Fin 64 → Fin 64 → EReal := fun e d => wc (ix3 (0 : Fin 1) d (colLo e))
def slabHi (wc : FVec Ideal S1x64x128 .f32) : Fin 64 → Fin 64 → EReal := fun e d => wc (ix3 (0 : Fin 1) d (colHi e))

/-- ONE LAYER AT AN INDEX: the rows-first layer of sample `b`'s rows, with the slab's first half as the key
    matrix and its second half as the query matrix (entry (e, d) of either is the slab at row d, column e of its half). -/
theorem kLayer_apply (x : FVec Ideal S256x40x64 .f32) (wc : FVec Ideal S1x64x128 .f32) (b : Fin 256) (n : Fin 40) (e : Fin 64) :
    kLayer x wc (ix3 b n e)
      = Cert.Sam.layerRows (fun n d => x (ix3 b n d)) (slabLo wc) (slabHi wc) n e := by
  unfold kLayer Cert.Sam.layerRows Cert.Sam.proj slabLo slabHi
  rw [addf_apply, mulf_apply, applMat_apply, qryPart_apply, projAll_apply]
  simp only [gram_apply, keyPart_apply, projAll_apply]

end Cert.KernelIdeal.SamBody

end
-- ==== Proof.FusedWeights.lean ====
/-
  The fused weight array, read at an index.

  Before the kernel is launched the host transposes the last two axes of K and of Q and joins the two results along the
  last axis into one 3 × 64 × 128 array.  So at (l, d, c) that array holds K[l, c, d] when c < 64 and Q[l, c − 64, d]
  otherwise: slab l's first half is K[l] transposed, its second half Q[l] transposed.
-/
import proofs.«116613_j27934467293444_2_alg».proof.Proof.KernelBody

noncomputable section

namespace Cert.KernelIdeal.SamBody

open Cert.KernelIdeal Cert.KernelIdeal.Gen Idealize.ShloMosaic Idealize.ShloMosaic.ValueIdx

/-- K and Q, each with its last two axes exchanged, side by side along the last axis. -/
def fused (K Q : FVec Ideal S3x64x64 .f32) : FVec Ideal S3x64x128 .f32 :=
  concatenate S3x64x128 2
    [⟨S3x64x64, transpose S3x64x64 [0, 2, 1] K transposes_S3x64x64_S3x64x64_0_2_1⟩,
     ⟨S3x64x64, transpose S3x64x64 [0, 2, 1] Q transposes_S3x64x64_S3x64x64_0_2_1⟩]
    concatenates_S3x64x64_S3x64x64_S3x64x128_d2

/-- The exchange of the last two axes at an index. -/
theorem swapped_apply (K : FVec Ideal S3x64x64 .f32) (l : Fin 3) (d e : Fin 64) :
    transpose S3x64x64 [0, 2, 1] K transposes_S3x64x64_S3x64x64_0_2_1 (ix3 l d e) = K (ix3 l e d) :=
  transpose_apply [0, 2, 1] K transposes_S3x64x64_S3x64x64_0_2_1 (ix3 l d e) (ix3 l e d)
    (fun b => match b with | ⟨0, _⟩ => rfl | ⟨1, _⟩ => rfl | ⟨2, _⟩ => rfl)

/-- The first half of slab `l` is K[l] transposed. -/
theorem fused_lo (K Q : FVec Ideal S3x64x64 .f32) (l : Fin 3) (d e : Fin 64) :
    fused K Q (ix3 l d (colLo e)) = K (ix3 l e d) := by
  unfold fused
  generalize hA : transpose S3x64x64 [0, 2, 1] K transposes_S3x64x64_S3x64x64_0_2_1 = A
  generalize transpose S3x64x64 [0, 2, 1] Q transposes_S3x64x64_S3x64x64_0_2_1 = B
  rw [concatenate_pair_apply_left (2 : Fin S3x64x128.rank) A B concatenates_S3x64x64_S3x64x64_S3x64x128_d2 (ix3 l d (colLo e)) rfl (ix3 l d e)
    (fun b => match b with | ⟨0, _⟩ => rfl | ⟨1, _⟩ => rfl | ⟨2, _⟩ => rfl)]
  rw [← hA]
  exact swapped_apply K l d e

/-- The second half of slab `l` is Q[l] transposed. -/
theorem fused_hi (K Q : FVec Ideal S3x64x64 .f32) (l : Fin 3) (d e : Fin 64) :
    fused K Q (ix3 l d (colHi e)) = Q (ix3 l e d) := by
  unfold fused
  generalize transpose S3x64x64 [0, 2, 1] K transposes_S3x64x64_S3x64x64_0_2_1 = A
  generalize hB : transpose S3x64x64 [0, 2, 1] Q transposes_S3x64x64_S3x64x64_0_2_1 = B
  rw [concatenate_pair_apply_right (2 : Fin S3x64x128.rank) A B concatenates_S3x64x64_S3x64x64_S3x64x128_d2 (ix3 l d (colHi e)) rfl rfl (ix3 l d e)
    (fun b => match b with
      | ⟨0, _⟩ => fun _ => rfl
      | ⟨1, _⟩ => fun _ => rfl
      | ⟨2, _⟩ => fun h => absurd rfl h)
    (by show e.val + 64 = 64 + e.val; omega)]
  rw [← hB]
  exact swapped_apply Q l d e

end Cert.KernelIdeal.SamBody

end
-- ==== Proof.SamSpec.lean ====
/-
  The result of the whole computation as ONE function of the four argument arrays.

  The arguments are F : 2048 samples × 40 rows × 64 numbers, K and Q : three 64 × 64 matrices each, and w : 40 weights
  (a 40 × 1 array).  Sample b's rows go through three layers (LayerAlgebra.lean), layer l with the matrices K[l], Q[l];
  the result at (b, e) is the w-weighted sum over the 40 rows of the last layer's column e.  Written twice, with the
  layers' triple product bracketed rows first and similarity first; the two are the same array as soon as F, K and Q
  hold real numbers.
-/
import proofs.«116613_j27934467293444_2_alg».proof.Proof.LayerAlgebra
import Idealize.ShloMosaic.Lib.ValueIdx

noncomputable section

namespace Cert.Sam

open Idealize.ShloMosaic Idealize.ShloMosaic.ValueIdx

abbrev ShF : Shape := ⟨3, ![2048, 40, 64]⟩
abbrev ShM : Shape := ⟨3, ![3, 64, 64]⟩
abbrev ShW : Shape := ⟨2, ![40, 1]⟩
abbrev ShO : Shape := ⟨2, ![2048, 64]⟩

/-- Layer `l`'s matrix out of a stack of three. -/
def mat (K : ShM.Idx → EReal) (l : Fin 3) : Fin 64 → Fin 64 → EReal := fun e d => K (ix3 l e d)

/-- Sample `b`'s 40 rows. -/
def rowsOf (F : ShF.Idx → EReal) (b : Fin 2048) : Fin 40 → Fin 64 → EReal := fun n d => F (ix3 b n d)

/-- The weights as a function of the row. -/
def weights (w : ShW.Idx → EReal) : Fin 40 → EReal := fun n => w (ix2 n (0 : Fin 1))

/-- The result at (b, e), rows first. -/
def outRows (F : ShF.Idx → EReal) (K Q : ShM.Idx → EReal) (w : ShW.Idx → EReal) (b : Fin 2048) (e : Fin 64) : EReal :=
  pool (layerRows (layerRows (layerRows (rowsOf F b) (mat K 0) (mat Q 0)) (mat K 1) (mat Q 1)) (mat K 2) (mat Q 2)) (weights w) e

/-- The result at (b, e), similarity first. -/
def outSim (F : ShF.Idx → EReal) (K Q : ShM.Idx → EReal) (w : ShW.Idx → EReal) (b : Fin 2048) (e : Fin 64) : EReal :=
  pool (layerSim (layerSim (layerSim (rowsOf F b) (mat K 0) (mat Q 0)) (mat K 1) (mat Q 1)) (mat K 2) (mat Q 2)) (weights w) e

/-- The result array, rows first. -/
def resultRows (F : ShF.Idx → EReal) (K Q : ShM.Idx → EReal) (w : ShW.Idx → EReal) : ShO.Idx → EReal :=
  fun j => outRows F K Q w ⟨(j 0).val, idx2_lt0 j⟩ ⟨(j 1).val, idx2_lt1 j⟩

/-- The result array, similarity first. -/
def resultSim (F : ShF.Idx → EReal) (K Q : ShM.Idx → EReal) (w : ShW.Idx → EReal) : ShO.Idx → EReal :=
  fun j => outSim F K Q w ⟨(j 0).val, idx2_lt0 j⟩ ⟨(j 1).val, idx2_lt1 j⟩

/-- On real entries of F, K and Q the two are one array (the weights may be anything). -/
theorem resultRows_eq_resultSim (F : ShF.Idx → EReal) (K Q : ShM.Idx → EReal) (w : ShW.Idx → EReal)
    (hF : ∀ i, ∃ r : ℝ, F i = (r : EReal)) (hK : ∀ i, ∃ r : ℝ, K i = (r : EReal)) (hQ : ∀ i, ∃ r : ℝ, Q i = (r : EReal)) :
    resultRows F K Q w = resultSim F K Q w := by
  choose f hf using hF
  choose k hk using hK
  choose q hq using hQ
  funext j
  unfold resultRows resultSim outRows outSim
  have eF : ∀ b, rowsOf F b = fun n d => ((f (ix3 b n d) : ℝ) : EReal) := fun b => funext fun n => funext fun d => hf _
  have eK : ∀ l, mat K l = fun e d => ((k (ix3 l e d) : ℝ) : EReal) := fun l => funext fun e => funext fun d => hk _
  have eQ : ∀ l, mat Q l = fun e d => ((q (ix3 l e d) : ℝ) : EReal) := fun l => funext fun e => funext fun d => hq _
  rw [eF, eK 0, eK 1, eK 2, eQ 0, eQ 1, eQ 2]
  exact congrArg (fun L => pool L (weights w) _)
    (three_layers (fun n d => f (ix3 ⟨(j 0).val, idx2_lt0 j⟩ n d)) (fun e d => k (ix3 0 e d)) (fun e d => q (ix3 0 e d))
      (fun e d => k (ix3 1 e d)) (fun e d => q (ix3 1 e d)) (fun e d => k (ix3 2 e d)) (fun e d => q (ix3 2 e d)))

end Cert.Sam

end
-- ==== Proof.KernelBlock.lean ====
/-
  What one grid point's body leaves in its output block, as a function of the arrays the blocks were cut from.

  The body reads a block of 256 samples, the whole fused weight array (three slabs) and the 40 weights; it applies three
  layers (KernelBody.lean), slab l in layer l, multiplies by the weights along the rows and sums the 40 rows.  If the
  sample block is rows base … base + 255 of an array F, the fused array is K and Q transposed side by side
  (FusedWeights.lean), and the weights are w, then the block's entry (p, e) is the rows-first result array of
  (F, K, Q, w) at (base + p, e) (SamSpec.lean).
-/
import proofs.«116613_j27934467293444_2_alg».proof.Proof.Gen.KernelIdeal.Frame
import proofs.«116613_j27934467293444_2_alg».proof.Proof.KernelBody
import proofs.«116613_j27934467293444_2_alg».proof.Proof.FusedWeights
import proofs.«116613_j27934467293444_2_alg».proof.Proof.SamSpec

noncomputable section

namespace Cert.KernelIdeal.SamBody

open Cert.KernelIdeal Cert.KernelIdeal.Gen Idealize.ShloMosaic Idealize.ShloMosaic.ValueIdx
open Cert.Sam

/-! ## The payloads -/

/-- The body's long payload is three layers in a row. -/
theorem layers_eq (v0 : FVec Ideal S256x40x64 .f32) (v1 v12 v23 : FVec Ideal S1x64x128 .f32) :
    k0_pay2 (F := Ideal) v0 v1 v12 v23 = kLayer (kLayer (kLayer v0 v1) v12) v23 := rfl

/-- The three layers at (b, n, e). -/
theorem layers_apply (v0 : FVec Ideal S256x40x64 .f32) (v1 v12 v23 : FVec Ideal S1x64x128 .f32) (b : Fin 256) (n : Fin 40) (e : Fin 64) :
    k0_pay2 (F := Ideal) v0 v1 v12 v23 (ix3 b n e)
      = layerRows (layerRows (layerRows (fun n d => v0 (ix3 b n d)) (slabLo v1) (slabHi v1)) (slabLo v12) (slabHi v12))
          (slabLo v23) (slabHi v23) n e := by
  rw [layers_eq]
  refine (kLayer_apply _ v23 b n e).trans ?_
  have h2 : (fun n d => kLayer (kLayer v0 v1) v12 (ix3 b n d))
      = layerRows (layerRows (fun n d => v0 (ix3 b n d)) (slabLo v1) (slabHi v1)) (slabLo v12) (slabHi v12) := by
    funext n d
    refine (kLayer_apply _ v12 b n d).trans ?_
    have h1 : (fun n d => kLayer v0 v1 (ix3 b n d)) = layerRows (fun n d => v0 (ix3 b n d)) (slabLo v1) (slabHi v1) := by
      funext n d; exact kLayer_apply v0 v1 b n d
    rw [h1]
  rw [h2]

/-- The weighted sum over the rows at (b, e): the reduction over the middle axis is the sum over the 40 rows, and the
    weights, held as a 1 × 40 × 1 array, are spread over samples and columns. -/
theorem pooled_apply (v33 : FVec Ideal S256x40x64 .f32) (v35 : FVec Ideal S1x40x1 .f32) (b : Fin 256) (e : Fin 64) :
    k0_pay1 (F := Ideal) v33 v35 (ix2 b e) = ∑ n : Fin 40, v33 (ix3 b n e) * v35 (ix3 (0 : Fin 1) n (0 : Fin 1)) := by
  unfold k0_pay1
  refine (Ideal.multiReduction_add_single _ 0x00000000#32 reduces_S256x40x64_S256x64 (.inl rfl) rfl (ix2 b e)).trans ?_
  refine Finset.sum_congr rfl fun (n : Fin 40) _ => ?_
  have hl : reduces_S256x40x64_S256x64.lift (ix2 b e) n = ix3 b n e := funext fun a => Fin.ext (by
    match a with | ⟨0, _⟩ => rfl | ⟨1, _⟩ => rfl | ⟨2, _⟩ => rfl)
  rw [hl, mulf_apply]
  refine congrArg (v33 (ix3 b n e) * ·) ?_
  exact broadcastTo_apply v35 broadcasts_S1x40x1_S256x40x64 (ix3 b n e) (ix3 (0 : Fin 1) n (0 : Fin 1)) (fun a => match a with
    | ⟨0, _⟩ => by show 0 = if (1 : Nat) = 1 then 0 else _; rw [if_pos rfl]
    | ⟨1, _⟩ => by show n.val = if (40 : Nat) = 1 then 0 else n.val; rw [if_neg (by decide)]
    | ⟨2, _⟩ => by show 0 = if (1 : Nat) = 1 then 0 else _; rw [if_pos rfl])

/-- The 40 × 1 weights recast as 1 × 40 × 1. -/
theorem weights_apply (v34 : FVec Ideal S40x1 .f32) (n : Fin 40) :
    k0_pay3 (F := Ideal) v34 (ix3 (0 : Fin 1) n (0 : Fin 1)) = v34 (ix2 n (0 : Fin 1)) := by
  unfold k0_pay3
  exact shapeCast_apply v34 shapeCasts_S40x1_S1x40x1 (ix3 (0 : Fin 1) n (0 : Fin 1)) (ix2 n (0 : Fin 1))
    (by rewrite [Shape.rowMajor_val_two, Shape.rowMajor_val_three]; show n.val * 1 + 0 = (0 * 40 + n.val) * 1 + 0; omega)

/-! ## The three slabs the body loads -/

theorem slab0_apply (x1 : FVec Ideal S3x64x128 .f32) (d : Fin 64) (c : Fin 128) :
    View.ld (Val := Elt Ideal) (e' := .f32) x1 r0_1 (ix3 (0 : Fin 1) d c) = x1 (ix3 (0 : Fin 3) d c) :=
  congrArg x1 (funext fun a => Fin.ext (by
    match a with
    | ⟨0, _⟩ => rfl
    | ⟨1, _⟩ => show 0 + 1 * d.val = d.val; omega
    | ⟨2, _⟩ => show 0 + 1 * c.val = c.val; omega))
theorem slab1_apply (x1 : FVec Ideal S3x64x128 .f32) (d : Fin 64) (c : Fin 128) :
    View.ld (Val := Elt Ideal) (e' := .f32) x1 r0_2 (ix3 (0 : Fin 1) d c) = x1 (ix3 (1 : Fin 3) d c) :=
  congrArg x1 (funext fun a => Fin.ext (by
    match a with
    | ⟨0, _⟩ => rfl
    | ⟨1, _⟩ => show 0 + 1 * d.val = d.val; omega
    | ⟨2, _⟩ => show 0 + 1 * c.val = c.val; omega))
theorem slab2_apply (x1 : FVec Ideal S3x64x128 .f32) (d : Fin 64) (c : Fin 128) :
    View.ld (Val := Elt Ideal) (e' := .f32) x1 r0_3 (ix3 (0 : Fin 1) d c) = x1 (ix3 (2 : Fin 3) d c) :=
  congrArg x1 (funext fun a => Fin.ext (by
    match a with
    | ⟨0, _⟩ => rfl
    | ⟨1, _⟩ => show 0 + 1 * d.val = d.val; omega
    | ⟨2, _⟩ => show 0 + 1 * c.val = c.val; omega))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The output block -/

/-- THE BLOCK a point leaves, entry (p, e), when its three input blocks are cut from F (rows from `base` on), from K and
    Q fused, and from w: the rows-first result of (F, K, Q, w) at row base + p, column e. -/
theorem block_result (x0 : FVec Ideal S256x40x64 .f32) (x1 : FVec Ideal S3x64x128 .f32) (x2 : FVec Ideal S40x1 .f32)
    (F : FVec Ideal S2048x40x64 .f32) (K Q : FVec Ideal S3x64x64 .f32) (w : FVec Ideal S40x1 .f32)
    (p : Fin 256) (e : Fin 64) (r : Fin 2048)
    (hx0 : ∀ (n : Fin 40) (d : Fin 64), x0 (ix3 p n d) = F (ix3 r n d))
    (hx1 : x1 = fused K Q) (hx2 : ∀ n : Fin 40, x2 (ix2 n (0 : Fin 1)) = w (ix2 n (0 : Fin 1))) :
    out0_3 (F := Ideal) x0 x1 x2 (ix2 p e) = outRows F K Q w r e := by
  subst hx1
  unfold out0_3
  rw [View.canon_unit_zero hz2]
  refine (pooled_apply _ _ p e).trans ?_
  unfold outRows Cert.Sam.pool
  refine Finset.sum_congr rfl fun n _ => ?_
  refine congrArg₂ (· * ·) ?_ ?_
  · refine (layers_apply _ _ _ _ p n e).trans ?_
    have e0 : (fun n d => View.ld (Val := Elt Ideal) (e' := .f32) x0 r0_0 (ix3 p n d)) = rowsOf F r := by
      funext n d; rw [View.ld_unit_zero (S := S256x40x64) hz3]; exact hx0 n d
    have k0 : slabLo (View.ld (Val := Elt Ideal) (e' := .f32) (fused K Q) r0_1) = mat K 0 := by
      funext e d; unfold slabLo mat; rw [slab0_apply]; exact fused_lo K Q 0 d e
    have q0 : slabHi (View.ld (Val := Elt Ideal) (e' := .f32) (fused K Q) r0_1) = mat Q 0 := by
      funext e d; unfold slabHi mat; rw [slab0_apply]; exact fused_hi K Q 0 d e
    have k1 : slabLo (View.ld (Val := Elt Ideal) (e' := .f32) (fused K Q) r0_2) = mat K 1 := by
      funext e d; unfold slabLo mat; rw [slab1_apply]; exact fused_lo K Q 1 d e
    have q1 : slabHi (View.ld (Val := Elt Ideal) (e' := .f32) (fused K Q) r0_2) = mat Q 1 := by
      funext e d; unfold slabHi mat; rw [slab1_apply]; exact fused_hi K Q 1 d e
    have k2 : slabLo (View.ld (Val := Elt Ideal) (e' := .f32) (fused K Q) r0_3) = mat K 2 := by
      funext e d; unfold slabLo mat; rw [slab2_apply]; exact fused_lo K Q 2 d e
    have q2 : slabHi (View.ld (Val := Elt Ideal) (e' := .f32) (fused K Q) r0_3) = mat Q 2 := by
      funext e d; unfold slabHi mat; rw [slab2_apply]; exact fused_hi K Q 2 d e
    rw [e0, k0, q0, k1, q1, k2, q2]
  · refine (weights_apply _ n).trans ?_
    rw [View.ld_unit_zero (S := S40x1) hz2]
    exact hx2 n

end Cert.KernelIdeal.SamBody

end
-- ==== Proof.KernelArray.lean ====
/-
  The kernel's result array after the run, as one function of the four arguments.

  The grid has 8 points; point t works on samples 256·t … 256·t + 255 of F, on the whole fused weight array and on all
  the weights, and writes rows 256·t … 256·t + 255 of the result.  By KernelBlock.lean each point writes back exactly
  its rows of the rows-first result array of (F, K, Q, w); the eight row ranges cover the array; so the array ends
  holding that function.
-/
import proofs.«116613_j27934467293444_2_alg».proof.Proof.Gen.KernelIdeal.Value
import proofs.«116613_j27934467293444_2_alg».proof.Proof.KernelBlock
import Idealize.ShloMosaic.Lib.StableHlo.Run

set_option maxRecDepth 16384

noncomputable section

namespace Cert.KernelIdeal.SamArray

open Cert.KernelIdeal Cert.KernelIdeal.Gen Cert.KernelIdeal.SamBody Idealize.ShloMosaic Idealize.ShloMosaic.TcCoe Idealize.SL.Sem
open Idealize.ShloMosaic.ValueIdx
open Idealize.ShloMosaic.Pipeline (Dat)
open Cert.Sam

variable (m : (ℓ : Loc nD τ sig) → Buf (Elt Ideal) ℓ) (ρ : Dev nD → PrngReg)

/-- The four arguments as core `c` holds them at launch. -/
abbrev argF (c : Dev nD) : FVec Ideal S2048x40x64 .f32 := m ((c : Thread nD τ).loc main_arg0)
abbrev argK (c : Dev nD) : FVec Ideal S3x64x64 .f32 := m ((c : Thread nD τ).loc main_arg1)
abbrev argQ (c : Dev nD) : FVec Ideal S3x64x64 .f32 := m ((c : Thread nD τ).loc main_arg2)
abbrev argW (c : Dev nD) : FVec Ideal S40x1 .f32 := m ((c : Thread nD τ).loc main_arg3)

/-- What the region finds in the fused weight array: the host's two transposes and the join, of K and Q as launched. -/
theorem fused_at_entry (c : Dev nD) : (V m c main_v2 : FVec Ideal S3x64x128 .f32) = fused (argK m c) (argQ m c) := by
  dsimp only [Gen.V, Gen.hostOps0]; after_results; rfl

/-- The printed index maps, decided over the 8 points: the sample block moves with the output block along the first
    axis, every other block index is 0, and the output's block index stays below 8. -/
theorem idx_facts : ∀ t : Fin cfg0.N,
    win0_0.index t (0 : Fin 3) = win0_3.index t (0 : Fin 2) ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every one of the 8 row ranges is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

/-- WHAT POINT `t` WRITES BACK is block `t` of the rows-first result array of the arguments. -/
theorem flushed_eq (c : Dev nD) (t : Fin cfg0.N) :
    (dats m 0 c).flushed 3 t
      = ((cfg0.win 3).blk t).view.read (Elt Ideal) (resultRows (argF m c) (argK m c) (argQ m c) (argW m c)) := by
  rw [Value.flushed3]
  obtain ⟨e00, e01, e02, e10, e11, e12, e20, e21, e31, e30⟩ := idx_facts t
  funext y
  have hy0 : (y 0).val < 256 := (y 0).isLt
  have hy1 : (y 1).val < 64 := (y 1).isLt
  have hr : win0_3.index t (0 : Fin 2) * 256 + (y 0).val < 2048 := by omega
  show out0_3 (iblk m c 0 t) (iblk m c 1 t) (iblk m c 2 t) y
    = resultRows (argF m c) (argK m c) (argQ m c) (argW m c) (((cfg0.win 3).blk t).view.emb y)
  have hy : y = ix2 (⟨(y 0).val, hy0⟩ : Fin 256) (⟨(y 1).val, hy1⟩ : Fin 64) := funext fun a => by
    match a with | ⟨0, _⟩ => rfl | ⟨1, _⟩ => rfl
  have hemb : ((cfg0.win 3).blk t).view.emb y
      = ix2 (⟨win0_3.index t (0 : Fin 2) * 256 + (y 0).val, hr⟩ : Fin 2048) (⟨(y 1).val, hy1⟩ : Fin 64) := by
    funext a; apply Fin.ext
    match a with
    | ⟨0, _⟩ => show win0_3.index t (0 : Fin 2) * 256 + 1 * (y 0).val = win0_3.index t (0 : Fin 2) * 256 + (y 0).val; omega
    | ⟨1, _⟩ => show win0_3.index t (1 : Fin 2) * 64 + 1 * (y 1).val = (y 1).val; omega
  rw [hemb]
  refine (congrArg (out0_3 (iblk m c 0 t) (iblk m c 1 t) (iblk m c 2 t)) hy).trans ?_
  refine block_result (iblk m c 0 t) (iblk m c 1 t) (iblk m c 2 t) (argF m c) (argK m c) (argQ m c) (argW m c)
    (⟨(y 0).val, hy0⟩ : Fin 256) (⟨(y 1).val, hy1⟩ : Fin 64) (⟨win0_3.index t (0 : Fin 2) * 256 + (y 0).val, hr⟩ : Fin 2048) ?_ ?_ ?_
  · intro n d
    show V m c main_arg0 (((cfg0.win 0).blk t).view.emb (ix3 (⟨(y 0).val, hy0⟩ : Fin 256) n d)) = _
    rw [V_main_arg0]
    refine congrArg (argF m c) (funext fun a => Fin.ext ?_)
    match a with
    | ⟨0, _⟩ => show win0_0.index t (0 : Fin 3) * 256 + 1 * (y 0).val = win0_3.index t (0 : Fin 2) * 256 + (y 0).val; omega
    | ⟨1, _⟩ => show win0_0.index t (1 : Fin 3) * 40 + 1 * n.val = n.val; omega
    | ⟨2, _⟩ => show win0_0.index t (2 : Fin 3) * 64 + 1 * d.val = d.val; omega
  · rw [← fused_at_entry m c]
    funext j
    show V m c main_v2 (((cfg0.win 1).blk t).view.emb j) = V m c main_v2 j
    refine congrArg (V m c main_v2) (funext fun a => Fin.ext ?_)
    match a with
    | ⟨0, _⟩ => show win0_1.index t (0 : Fin 3) * 3 + 1 * (j 0).val = (j 0).val; omega
    | ⟨1, _⟩ => show win0_1.index t (1 : Fin 3) * 64 + 1 * (j 1).val = (j 1).val; omega
    | ⟨2, _⟩ => show win0_1.index t (2 : Fin 3) * 128 + 1 * (j 2).val = (j 2).val; omega
  · intro n
    show V m c main_arg3 (((cfg0.win 2).blk t).view.emb (ix2 n (0 : Fin 1))) = _
    rw [V_main_arg3]
    refine congrArg (argW m c) (funext fun a => Fin.ext ?_)
    match a with
    | ⟨0, _⟩ => show win0_2.index t (0 : Fin 2) * 40 + 1 * n.val = n.val; omega
    | ⟨1, _⟩ => show win0_2.index t (1 : Fin 2) * 1 + 1 * 0 = 0; omega

/-- An index of the result array is in point `t`'s block iff each coordinate is in the block's range on its axis. -/
theorem mem_blk (t : Fin cfg0.N) (i : S2048x64.Idx) :
    i ∈ ((cfg0.win 3).blk t).view.set ↔ ∀ a : Fin 2, win0_3.index t a * S256x64.size a ≤ (i a).val
      ∧ (i a).val < win0_3.index t a * S256x64.size a + S256x64.size a := by
  show i ∈ ((View.whole main_v3).slice (win0_3.rect t)).set ↔ _
  rw [View.set_slice_whole, Rect.mem_set_unit]
  exact Iff.rfl

/-- The eight row ranges cover the result array: row r is in the block of the point with block index r / 256. -/
theorem cover (i : S2048x64.Idx) :
    ∃ t : Fin cfg0.N, (cfg0.win 3).flush t = true ∧ i ∈ ((cfg0.win 3).blk t).view.set := by
  have hi0 : (i 0).val < 2048 := (i 0).isLt
  have hi1 : (i 1).val < 64 := (i 1).isLt
  obtain ⟨t, ht⟩ := idx_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 64 ≤ (i 1).val ∧ (i 1).val < win0_3.index t (1 : Fin 2) * 64 + 64; omega

/-- THE RESULT ARRAY after the run is the rows-first result array of the arguments. -/
theorem final (c : Dev nD) :
    (dats m 0 c).arrAt 3 cfg0.N = resultRows (argF m c) (argK m c) (argQ m c) (argW m c) :=
  (dats m 0 c).arrAt_eq_of_cover 3 (resultRows (argF m c) (argK m c) (argQ m c) (argW m c))
    (fun t _ => flushed_eq m c t) cover

/-- THE KERNEL'S RUN: every weakly fair execution terminates with the result array at that function of the arguments and
    the arguments unchanged. -/
theorem run : θ_run defs (onTc (τ := τ) (main (F := Ideal))) ⟨m, fun _ => 0, ρ⟩ fun r => ∀ c : Dev nD,
      r.2.mem ((c : Thread nD τ).loc main_v3) = resultRows (argF m c) (argK m c) (argQ m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.SamArray

end
-- ==== Proof.RefValue.lean ====
/-
  The reference, read at an index (at the ideal values).

  The reference applies three layers to the whole array F and then takes the weighted sum over the 40 rows.  One layer
  is four host matrix products, a product and a sum of arrays: the projection of every row on the key matrix, per sample the
  40 × 40 similarity matrix of the rows against the projected rows, that matrix times the block, times the block entry by
  entry, plus the projection on the query matrix.  Read at (b, n, e) a layer is `Cert.Sam.layerSim` of sample b's rows; the three
  layers compose, and the last step is the sum over the rows from the initial value 0.  The coordinates of the operands'
  indices of each product are the ones the generated reading module proves from the dimension numbers.
-/
import proofs.«116613_j27934467293444_2_alg».proof.Proof.Gen.ReferenceIdeal.Read
import proofs.«116613_j27934467293444_2_alg».proof.Proof.SamSpec
import Idealize.ShloMosaic.Lib.Pipeline.Value
import Idealize.ShloMosaic.Lib.ValueIdx
import Idealize.ShloMosaic.PureOps.Ideal.Laws

noncomputable section

namespace Cert.ReferenceIdeal.SamRef

open Cert.ReferenceIdeal Cert.ReferenceIdeal.Gen Cert.ReferenceIdeal.Read Idealize.ShloMosaic Idealize.ShloMosaic.ValueIdx
open Cert.Sam

/-! ## The three host products as sums -/

/-- A block against a 64 × 64 matrix: entry (b, n, e) is row (b, n) of the block against row e of the matrix. -/
theorem refProj_apply (l : FVec Ideal S2048x40x64 .f32) (r : FVec Ideal S64x64 .f32) (b : Fin 2048) (n : Fin 40) (e : Fin 64) :
    Host.dotGeneral dot_S2048x40x64_S64x64_S2048x40x64_2_1_01_0_n_n none l r (ix3 b n e) = ∑ k : Fin 64, l (ix3 b n k) * r (ix2 e k) := by
  simp only [Host.dotGeneral]
  rw [Ideal.dotGeneral_apply, ← Equiv.sum_comp (contrEquiv1 dot_S2048x40x64_S64x64_S2048x40x64_2_1_01_0_n_n 64 rfl rfl).symm]
  refine Finset.sum_congr rfl fun k _ => ?_
  have hk := contrEquiv1_symm_val dot_S2048x40x64_S64x64_S2048x40x64_2_1_01_0_n_n 64 rfl rfl k
  have el : dot_S2048x40x64_S64x64_S2048x40x64_2_1_01_0_n_n.lhsIdx (ix3 b n e) ((contrEquiv1 dot_S2048x40x64_S64x64_S2048x40x64_2_1_01_0_n_n 64 rfl rfl).symm k) = ix3 b n k := funext fun a => Fin.ext (by
    match a with
    | ⟨0, _⟩ => exact lhs_main_v4_0 _ _
    | ⟨1, _⟩ => exact lhs_main_v4_1 _ _
    | ⟨2, _⟩ => exact (lhs_main_v4_2 _ _).trans hk)
  have er : dot_S2048x40x64_S64x64_S2048x40x64_2_1_01_0_n_n.rhsIdx (ix3 b n e) ((contrEquiv1 dot_S2048x40x64_S64x64_S2048x40x64_2_1_01_0_n_n 64 rfl rfl).symm k) = ix2 e k := funext fun a => Fin.ext (by
    match a with
    | ⟨0, _⟩ => exact rhs_main_v4_0 _ _
    | ⟨1, _⟩ => exact (rhs_main_v4_1 _ _).trans hk)
  rw [el, er]

/-- Per sample, rows against rows: entry (b, n, m) is row n of the left block against row m of the right block. -/
theorem refSim_apply (l : FVec Ideal S2048x40x64 .f32) (r : FVec Ideal S2048x40x64 .f32) (b : Fin 2048) (n m : Fin 40) :
    Host.dotGeneral dot_S2048x40x64_S2048x40x64_S2048x40x40_2_2_1_1_0_0 none l r (ix3 b n m) = ∑ k : Fin 64, l (ix3 b n k) * r (ix3 b m k) := by
  simp only [Host.dotGeneral]
  rw [Ideal.dotGeneral_apply, ← Equiv.sum_comp (contrEquiv1 dot_S2048x40x64_S2048x40x64_S2048x40x40_2_2_1_1_0_0 64 rfl rfl).symm]
  refine Finset.sum_congr rfl fun k _ => ?_
  have hk := contrEquiv1_symm_val dot_S2048x40x64_S2048x40x64_S2048x40x40_2_2_1_1_0_0 64 rfl rfl k
  have el : dot_S2048x40x64_S2048x40x64_S2048x40x40_2_2_1_1_0_0.lhsIdx (ix3 b n m) ((contrEquiv1 dot_S2048x40x64_S2048x40x64_S2048x40x40_2_2_1_1_0_0 64 rfl rfl).symm k) = ix3 b n k := funext fun a => Fin.ext (by
    match a with
    | ⟨0, _⟩ => exact lhs_main_v5_0 _ _
    | ⟨1, _⟩ => exact lhs_main_v5_1 _ _
    | ⟨2, _⟩ => exact (lhs_main_v5_2 _ _).trans hk)
  have er : dot_S2048x40x64_S2048x40x64_S2048x40x40_2_2_1_1_0_0.rhsIdx (ix3 b n m) ((contrEquiv1 dot_S2048x40x64_S2048x40x64_S2048x40x40_2_2_1_1_0_0 64 rfl rfl).symm k) = ix3 b m k := funext fun a => Fin.ext (by
    match a with
    | ⟨0, _⟩ => exact rhs_main_v5_0 _ _
    | ⟨1, _⟩ => exact rhs_main_v5_1 _ _
    | ⟨2, _⟩ => exact (rhs_main_v5_2 _ _).trans hk)
  rw [el, er]

/-- Per sample, a 40 × 40 matrix times the block: entry (b, n, e) is the sum over the 40 rows. -/
theorem refMix_apply (l : FVec Ideal S2048x40x40 .f32) (r : FVec Ideal S2048x40x64 .f32) (b : Fin 2048) (n : Fin 40) (e : Fin 64) :
    Host.dotGeneral dot_S2048x40x40_S2048x40x64_S2048x40x64_2_1_1_2_0_0 none l r (ix3 b n e) = ∑ k : Fin 40, l (ix3 b n k) * r (ix3 b k e) := by
  simp only [Host.dotGeneral]
  rw [Ideal.dotGeneral_apply, ← Equiv.sum_comp (contrEquiv1 dot_S2048x40x40_S2048x40x64_S2048x40x64_2_1_1_2_0_0 40 rfl rfl).symm]
  refine Finset.sum_congr rfl fun k _ => ?_
  have hk := contrEquiv1_symm_val dot_S2048x40x40_S2048x40x64_S2048x40x64_2_1_1_2_0_0 40 rfl rfl k
  have el : dot_S2048x40x40_S2048x40x64_S2048x40x64_2_1_1_2_0_0.lhsIdx (ix3 b n e) ((contrEquiv1 dot_S2048x40x40_S2048x40x64_S2048x40x64_2_1_1_2_0_0 40 rfl rfl).symm k) = ix3 b n k := funext fun a => Fin.ext (by
    match a with
    | ⟨0, _⟩ => exact lhs_main_v6_0 _ _
    | ⟨1, _⟩ => exact lhs_main_v6_1 _ _
    | ⟨2, _⟩ => exact (lhs_main_v6_2 _ _).trans hk)
  have er : dot_S2048x40x40_S2048x40x64_S2048x40x64_2_1_1_2_0_0.rhsIdx (ix3 b n e) ((contrEquiv1 dot_S2048x40x40_S2048x40x64_S2048x40x64_2_1_1_2_0_0 40 rfl rfl).symm k) = ix3 b k e := funext fun a => Fin.ext (by
    match a with
    | ⟨0, _⟩ => exact rhs_main_v6_0 _ _
    | ⟨1, _⟩ => exact (rhs_main_v6_1 _ _).trans hk
    | ⟨2, _⟩ => exact rhs_main_v6_2 _ _)
  rw [el, er]

/-! ## One layer -/

/-- One layer of the reference, of any block and any two 64 × 64 matrices. -/
def refLayer (X : FVec Ideal S2048x40x64 .f32) (Km Qm : FVec Ideal S64x64 .f32) : FVec Ideal S2048x40x64 .f32 :=
  addf (mulf X (Host.dotGeneral dot_S2048x40x40_S2048x40x64_S2048x40x64_2_1_1_2_0_0 none (Host.dotGeneral dot_S2048x40x64_S2048x40x64_S2048x40x40_2_2_1_1_0_0 none X (Host.dotGeneral dot_S2048x40x64_S64x64_S2048x40x64_2_1_01_0_n_n none X Km)) X))
    (Host.dotGeneral dot_S2048x40x64_S64x64_S2048x40x64_2_1_01_0_n_n none X Qm)

/-- ONE LAYER AT AN INDEX: the similarity-first layer of sample `b`'s rows. -/
theorem refLayer_apply (X : FVec Ideal S2048x40x64 .f32) (Km Qm : FVec Ideal S64x64 .f32) (b : Fin 2048) (n : Fin 40) (e : Fin 64) :
    refLayer X Km Qm (ix3 b n e)
      = layerSim (fun n d => X (ix3 b n d)) (fun e d => Km (ix2 e d)) (fun e d => Qm (ix2 e d)) n e := by
  unfold refLayer layerSim proj
  rw [addf_apply, mulf_apply, refMix_apply, refProj_apply]
  simp only [refSim_apply, refProj_apply]

/-! ## The matrices of the three layers -/

theorem mat_v1 (x : FVec Ideal S3x64x64 .f32) (e d : Fin 64) : val_main_v1 (F := Ideal) x (ix2 e d) = x (ix3 (0 : Fin 3) e d) := by
  have he := e.isLt; have hd := d.isLt
  rw [val_main_v1_apply, val_main_v0_apply]
  exact congrArg x (funext fun a => Fin.ext (by
    match a with
    | ⟨0, _⟩ => rfl
    | ⟨1, _⟩ => show (e.val * 64 + d.val) / 64 % 64 = e.val; omega
    | ⟨2, _⟩ => show (e.val * 64 + d.val) % 64 = d.val; omega))

theorem mat_v3 (x : FVec Ideal S3x64x64 .f32) (e d : Fin 64) : val_main_v3 (F := Ideal) x (ix2 e d) = x (ix3 (0 : Fin 3) e d) := by
  have he := e.isLt; have hd := d.isLt
  rw [val_main_v3_apply, val_main_v2_apply]
  exact congrArg x (funext fun a => Fin.ext (by
    match a with
    | ⟨0, _⟩ => rfl
    | ⟨1, _⟩ => show (e.val * 64 + d.val) / 64 % 64 = e.val; omega
    | ⟨2, _⟩ => show (e.val * 64 + d.val) % 64 = d.val; omega))

theorem mat_v11 (x : FVec Ideal S3x64x64 .f32) (e d : Fin 64) : val_main_v11 (F := Ideal) x (ix2 e d) = x (ix3 (1 : Fin 3) e d) := by
  have he := e.isLt; have hd := d.isLt
  rw [val_main_v11_apply, val_main_v10_apply]
  exact congrArg x (funext fun a => Fin.ext (by
    match a with
    | ⟨0, _⟩ => rfl
    | ⟨1, _⟩ => show (e.val * 64 + d.val) / 64 % 64 = e.val; omega
    | ⟨2, _⟩ => show (e.val * 64 + d.val) % 64 = d.val; omega))

theorem mat_v13 (x : FVec Ideal S3x64x64 .f32) (e d : Fin 64) : val_main_v13 (F := Ideal) x (ix2 e d) = x (ix3 (1 : Fin 3) e d) := by
  have he := e.isLt; have hd := d.isLt
  rw [val_main_v13_apply, val_main_v12_apply]
  exact congrArg x (funext fun a => Fin.ext (by
    match a with
    | ⟨0, _⟩ => rfl
    | ⟨1, _⟩ => show (e.val * 64 + d.val) / 64 % 64 = e.val; omega
    | ⟨2, _⟩ => show (e.val * 64 + d.val) % 64 = d.val; omega))

theorem mat_v21 (x : FVec Ideal S3x64x64 .f32) (e d : Fin 64) : val_main_v21 (F := Ideal) x (ix2 e d) = x (ix3 (2 : Fin 3) e d) := by
  have he := e.isLt; have hd := d.isLt
  rw [val_main_v21_apply, val_main_v20_apply]
  exact congrArg x (funext fun a => Fin.ext (by
    match a with
    | ⟨0, _⟩ => rfl
    | ⟨1, _⟩ => show (e.val * 64 + d.val) / 64 % 64 = e.val; omega
    | ⟨2, _⟩ => show (e.val * 64 + d.val) % 64 = d.val; omega))

theorem mat_v23 (x : FVec Ideal S3x64x64 .f32) (e d : Fin 64) : val_main_v23 (F := Ideal) x (ix2 e d) = x (ix3 (2 : Fin 3) e d) := by
  have he := e.isLt; have hd := d.isLt
  rw [val_main_v23_apply, val_main_v22_apply]
  exact congrArg x (funext fun a => Fin.ext (by
    match a with
    | ⟨0, _⟩ => rfl
    | ⟨1, _⟩ => show (e.val * 64 + d.val) / 64 % 64 = e.val; omega
    | ⟨2, _⟩ => show (e.val * 64 + d.val) % 64 = d.val; omega))

/-! ## The three layers and the weighted sum -/

/-- The array after the third layer is three layers applied in turn. -/
theorem three_refLayers (x0 : FVec Ideal S2048x40x64 .f32) (x1 x2 : FVec Ideal S3x64x64 .f32) :
    val_main_v29 (F := Ideal) x0 x1 x2
      = refLayer (refLayer (refLayer x0 (val_main_v1 (F := Ideal) x1) (val_main_v3 (F := Ideal) x2))
          (val_main_v11 (F := Ideal) x1) (val_main_v13 (F := Ideal) x2)) (val_main_v21 (F := Ideal) x1) (val_main_v23 (F := Ideal) x2) := rfl

/-- The array after the third layer at (b, n, e). -/
theorem after_layers_apply (x0 : FVec Ideal S2048x40x64 .f32) (x1 x2 : FVec Ideal S3x64x64 .f32) (b : Fin 2048) (n : Fin 40) (e : Fin 64) :
    val_main_v29 (F := Ideal) x0 x1 x2 (ix3 b n e)
      = layerSim (layerSim (layerSim (rowsOf x0 b) (mat x1 0) (mat x2 0)) (mat x1 1) (mat x2 1)) (mat x1 2) (mat x2 2) n e := by
  rw [three_refLayers, refLayer_apply]
  have h2 : (fun n d => refLayer (refLayer x0 (val_main_v1 (F := Ideal) x1) (val_main_v3 (F := Ideal) x2))
      (val_main_v11 (F := Ideal) x1) (val_main_v13 (F := Ideal) x2) (ix3 b n d))
      = layerSim (layerSim (rowsOf x0 b) (mat x1 0) (mat x2 0)) (mat x1 1) (mat x2 1) := by
    funext n d
    rw [refLayer_apply]
    have h1 : (fun n d => refLayer x0 (val_main_v1 (F := Ideal) x1) (val_main_v3 (F := Ideal) x2) (ix3 b n d))
        = layerSim (rowsOf x0 b) (mat x1 0) (mat x2 0) := by
      funext n d
      rw [refLayer_apply]
      simp only [mat_v1, mat_v3]
      rfl
    rw [h1]
    simp only [mat_v11, mat_v13]
    rfl
  rw [h2]
  simp only [mat_v21, mat_v23]
  rfl

/-- THE REFERENCE'S RESULT is the similarity-first result array of its four arguments. -/
theorem result_eq (x0 : FVec Ideal S2048x40x64 .f32) (x1 x2 : FVec Ideal S3x64x64 .f32) (x3 : FVec Ideal S40x1 .f32) :
    val_main_v33 (F := Ideal) x0 x1 x2 x3 = resultSim x0 x1 x2 x3 := by
  funext j
  obtain ⟨b, e, rfl⟩ : ∃ (b : Fin 2048) (e : Fin 64), j = ix2 b e := ⟨j 0, j 1, eq_ix2 j⟩
  rw [val_main_v33_apply, val_main_cst_apply]
  show Ideal.ofBits .f32 0x00000000#32 + _ = _
  rw [Ideal.ofBits_zero_f32, zero_add]
  show _ = Cert.Sam.pool _ (weights x3) e
  unfold Cert.Sam.pool
  refine Finset.sum_congr rfl fun k _ => ?_
  have hi : idx_main_v33 (ix2 b e) k = ix3 b k e := funext fun a => by
    match a with | ⟨0, _⟩ => rfl | ⟨1, _⟩ => rfl | ⟨2, _⟩ => rfl
  rw [hi, val_main_v32_apply, after_layers_apply, val_main_v31_apply, val_main_v30_apply]
  show _ * x3 _ = _ * x3 _
  refine congrArg (_ * x3 ·) (funext fun a => Fin.ext (by
    match a with | ⟨0, _⟩ => rfl | ⟨1, _⟩ => rfl))

end Cert.ReferenceIdeal.SamRef

end
-- ==== Proof.FiniteInputs.lean ====
/-
  The precondition read back: every entry of every input is a real number.

  The precondition is the conjunction of four tests, one per input array, each saying "the absolute value of every entry is
  below +∞".  On the extended reals |x| = max x (−x), so the test at one entry excludes both infinities and leaves a real number.
  A test over a whole array is an `and` over all its entries, which is 1 only when every entry's test is 1.
-/
import proofs.«116613_j27934467293444_2_alg».proof.Pre_finite_inputs
import proofs.«116613_j27934467293444_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.SamFinite

open Cert.Pre_finite_inputs Cert.Pre_finite_inputs.Gen Idealize.ShloMosaic

instance : Subsingleton S_.Idx := ⟨fun a b => funext fun d => d.elim0⟩

/-- The pattern the tests compare with denotes +∞. -/
theorem inf_pattern : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One array's test: if the `and` over all entries of "|x| < +∞" is 1, every entry is a real number. -/
theorem reals_of_test {s : Shape} {axes : List (Fin s.rank)} (x bc : FVec Ideal s .f32)
    (hbc : ∀ i, bc i = Ideal.ofBits .f32 0x7F800000#32) (hr : s.ReducesTo axes S_) (hu : 0 < S_.numel)
    (h : Host.reduce IntOp.andi (cmpf .olt (Host.absf x) bc) (constantI S_ 1 1#1) hr hu ValueIdx.ix0 = 1#1) :
    ∀ i, ∃ r : ℝ, x i = (r : EReal) := by
  intro i
  have hi := Host.reduce_andi_all (cmpf .olt (Host.absf x) bc) (constantI S_ 1 1#1) hr hu ValueIdx.ix0 h i
  have hi' : Ideal.cmp .olt (max (x i) (-(x i))) (bc i) = 1#1 := hi
  rw [hbc, inf_pattern] at hi'
  refine real_of_abs_lt_top (x i) ?_
  unfold Ideal.cmp at hi'
  by_contra hn
  simp [hn] at hi'

/-- THE PRECONDITION gives real entries in all four inputs. -/
theorem reals_of_pre (F : FVec Ideal S2048x40x64 .f32) (K Q : FVec Ideal S3x64x64 .f32) (w : FVec Ideal S40x1 .f32)
    (h : fn (F := Ideal) F K Q w = fun _ => 1#1) :
    (∀ i, ∃ r : ℝ, F i = (r : EReal)) ∧ (∀ i, ∃ r : ℝ, K i = (r : EReal)) ∧ (∀ i, ∃ r : ℝ, Q i = (r : EReal))
      ∧ (∀ i, ∃ r : ℝ, w i = (r : EReal)) := by
  have h0 := congrFun h ValueIdx.ix0
  simp only [fn, fn_part1, andi, IntOp.andi_eq_one] at h0
  obtain ⟨⟨⟨hF, hK⟩, hQ⟩, hw⟩ := h0
  exact ⟨reals_of_test F _ (fun _ => rfl) _ _ hF, reals_of_test K _ (fun _ => rfl) _ _ hK,
    reals_of_test Q _ (fun _ => rfl) _ _ hQ, reals_of_test w _ (fun _ => rfl) _ _ hw⟩

end Cert.Pre_finite_inputs.SamFinite

end
-- ==== Proof.lean ====
/-
  The certificate of one kernel against its reference: three layers of a bilinear interaction over 40 rows of 64 numbers
  per sample, then a weighted sum over the rows.

  The kernel works sample block by sample block.  In each layer it projects the rows on the key and query matrices with
  ONE product against the two matrices side by side, forms per sample the 64 × 64 matrix  ∑ₘ key[m, ·] ⊗ x[m, ·]  and
  multiplies the rows by it.  The reference forms per sample the 40 × 40 similarity matrix of the rows against the projected
  rows and multiplies it by the rows.  The two bracketings of the triple product agree on real numbers (distributivity and an
  exchange of two finite sums: LayerAlgebra.lean), and under the precondition every input entry is a real number
  (FiniteInputs.lean), hence so is every partial result.  KernelBody / FusedWeights / KernelBlock / KernelArray read the
  kernel's result array as one function of the arguments, RefValue reads the reference's, SamSpec states both functions
  and their equality; this file joins them.  The ideal pass rewrote nothing, so `preserves` is trivial; the three frames
  are the generated frame runs.
-/
import proofs.«116613_j27934467293444_2_alg».proof.Defs
import proofs.«116613_j27934467293444_2_alg».proof.Proof.Gen.Kernel
import proofs.«116613_j27934467293444_2_alg».proof.Proof.Gen.Kernel.Skeleton
import proofs.«116613_j27934467293444_2_alg».proof.Proof.Gen.Kernel.Launch
import proofs.«116613_j27934467293444_2_alg».proof.Proof.Gen.Kernel.Points
import proofs.«116613_j27934467293444_2_alg».proof.Proof.Gen.Kernel.Frame
import proofs.«116613_j27934467293444_2_alg».proof.Proof.Gen.KernelIdeal
import proofs.«116613_j27934467293444_2_alg».proof.Proof.Gen.KernelIdeal.Skeleton
import proofs.«116613_j27934467293444_2_alg».proof.Proof.Gen.KernelIdeal.Launch
import proofs.«116613_j27934467293444_2_alg».proof.Proof.Gen.KernelIdeal.Points
import proofs.«116613_j27934467293444_2_alg».proof.Proof.Gen.KernelIdeal.Frame
import proofs.«116613_j27934467293444_2_alg».proof.Proof.Gen.ReferenceIdeal
import proofs.«116613_j27934467293444_2_alg».proof.Proof.Gen.Pre_finite_inputs
import proofs.«116613_j27934467293444_2_alg».proof.Proof.Gen.KernelIdeal.Value
import proofs.«116613_j27934467293444_2_alg».proof.Proof.Gen.ReferenceIdeal.Run
import proofs.«116613_j27934467293444_2_alg».proof.Proof.Gen.ReferenceIdeal.Read
import proofs.«116613_j27934467293444_2_alg».proof.Proof.KernelArray
import proofs.«116613_j27934467293444_2_alg».proof.Proof.RefValue
import proofs.«116613_j27934467293444_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the similarity-first result array of the arguments: the reference by its reading, the kernel
    because its rows-first array is the same one on real entries, which the precondition provides. -/
theorem algebraic : Cert.algebraic_KernelIdeal_ReferenceIdeal := by
  intro m ρ m' ρ' hpre hagree
  refine ⟨fun c => Cert.Sam.resultSim (Cert.KernelIdeal.SamArray.argF m c) (Cert.KernelIdeal.SamArray.argK m c)
    (Cert.KernelIdeal.SamArray.argQ m c) (Cert.KernelIdeal.SamArray.argW m c), ?_, ?_⟩
  · refine (θ_run Cert.KernelIdeal.defs _ _).mono (fun r h c => ⟨(h c).1.trans ?_, (h c).2⟩)
      (Cert.KernelIdeal.SamArray.run m ρ)
    obtain ⟨hF, hK, hQ, _⟩ := Cert.Pre_finite_inputs.SamFinite.reals_of_pre _ _ _ _ (hpre c)
    exact Cert.Sam.resultRows_eq_resultSim _ _ _ _ hF hK hQ
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v33_eq m' c).trans ?_
    rw [Cert.ReferenceIdeal.SamRef.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
